-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x768x64 : Shape := ⟨3, ![1, 768, 64]⟩
abbrev S_ : Shape := ⟨0, ![]⟩

class Facts : Prop where
  bcast_S_S1x768x64 : S_.BroadcastsInDim S1x768x64 (![] : Fin 0 → Fin S1x768x64.rank)
  reducesTo_S1x768x64_S_d0_1_2 : S1x768x64.ReducesTo [0, 1, 2] S_
  h_S_ : 0 < S_.numel

variable [Facts]

def fn {F : FTy → Type} [FloatOps F] (main_arg0 : FVec F S1x768x64 .f32) : IVec S_ 1 :=
  let main_v0 : FVec F S1x768x64 .f32 := Host.absf main_arg0
  let main_cst : FVec F S_ .f32 := constant S_ .f32 0x7F800000#32
  let main_v1 : FVec F S1x768x64 .f32 := broadcastInDim S1x768x64 ![] bcast_S_S1x768x64 main_cst
  let main_v2 : IVec S1x768x64 1 := cmpf .olt main_v0 main_v1
  let main_c : IVec S_ 1 := constantI S_ 1 1#1
  let main_v3 : IVec S_ 1 := (fun x v => Host.reduce IntOp.andi x v reducesTo_S1x768x64_S_d0_1_2 h_S_) main_v2 main_c
  main_v3
-- ==== Kernel.lean ====
abbrev S1x768x64 : Shape := ⟨3, ![1, 768, 64]⟩
abbrev S1x768x768x192 : Shape := ⟨4, ![1, 768, 768, 192]⟩
abbrev S1x128x128x192 : Shape := ⟨4, ![1, 128, 128, 192]⟩
abbrev S1x128x64 : Shape := ⟨3, ![1, 128, 64]⟩
abbrev S1x128x1x64 : Shape := ⟨4, ![1, 128, 1, 64]⟩
abbrev S1x128x128x64 : Shape := ⟨4, ![1, 128, 128, 64]⟩
abbrev S1x1x128x64 : Shape := ⟨4, ![1, 1, 128, 64]⟩

abbrev nBuf : Space → Nat
  | .hbm => 2
  | .vmem => 3
  | .smem => 0
  | _ => 0

abbrev bufTy : (tb : Table) → Fin (tcTables nBuf tb) → BufTy
  | .hbm, ⟨0, _⟩ => ⟨S1x768x64, .f32⟩
  | .hbm, ⟨1, _⟩ => ⟨S1x768x768x192, .f32⟩
  | .local _ .vmem, ⟨0, _⟩ => ⟨S1x768x64, .f32⟩
  | .local _ .vmem, ⟨1, _⟩ => ⟨S1x128x128x192, .f32⟩
  | .local _ .vmem, ⟨2, _⟩ => ⟨S1x128x128x192, .f32⟩
  | _, _ => ⟨S1x768x64, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨2, ![6, 6], ![false, false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_mult2 (i : grid0.Coords) : BitVec 32 :=
  let arg1 : BitVec 32 := BitVec.ofNat 32 (i 1).val
  let c128_i32_0 : BitVec 32 := 128#32
  let v2 : BitVec 32 := Scalar.muli arg1 c128_i32_0
  v2
def k0_off1 (i : grid0.Coords) : Fin 3 → Nat :=
  let c0 : Index := 0#32
  let arg0 : BitVec 32 := BitVec.ofNat 32 (i 0).val
  let c128_i32 : BitVec 32 := 128#32
  let v0 : BitVec 32 := Scalar.muli arg0 c128_i32
  let v1 : BitVec 32 := v0
  let v4 : Index := Scalar.indexCast v1
  let c0_1 : Index := 0#32
  ![0, v4.toNat, 0]
def k0_off2 (i : grid0.Coords) : Fin 3 → Nat :=
  let c0_2 : Index := 0#32
  let arg1 : BitVec 32 := BitVec.ofNat 32 (i 1).val
  let c128_i32_0 : BitVec 32 := 128#32
  let v2 : BitVec 32 := Scalar.muli arg1 c128_i32_0
  let v3 : BitVec 32 := v2
  let v6 : Index := Scalar.indexCast v3
  let c0_3 : Index := 0#32
  ![0, v6.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 1 → Memref sig .tc .vmem S1x768x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x128x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  h_S1x128x64 : 0 < S1x128x64.numel
  shapeCasts_S1x128x64_S1x128x1x64 : S1x128x64.ShapeCasts S1x128x1x64
  shapeCasts_S1x128x1x64_S1x128x1x64 : S1x128x1x64.ShapeCasts S1x128x1x64
  broadcasts_S1x128x1x64_S1x128x128x64 : S1x128x1x64.Broadcasts S1x128x128x64
  shapeCasts_S1x128x64_S1x1x128x64 : S1x128x64.ShapeCasts S1x1x128x64
  shapeCasts_S1x1x128x64_S1x1x128x64 : S1x1x128x64.ShapeCasts S1x1x128x64
  broadcasts_S1x1x128x64_S1x128x128x64 : S1x1x128x64.Broadcasts S1x128x128x64
  inb_S1x128x128x192_S1x128x128x64_0_0_0_0 : ∀ a, (![0, 0, 0, 0] : Fin 4 → Nat) a + S1x128x128x64.size a ≤ S1x128x128x192.size a
  h_S1x128x128x64 : 0 < S1x128x128x64.numel
  inb_S1x128x128x192_S1x128x128x64_0_0_0_64 : ∀ a, (![0, 0, 0, 64] : Fin 4 → Nat) a + S1x128x128x64.size a ≤ S1x128x128x192.size a
  inb_S1x128x128x192_S1x128x128x64_0_0_0_128 : ∀ a, (![0, 0, 0, 128] : Fin 4 → Nat) a + S1x128x128x64.size a ≤ S1x128x128x192.size a
  hrank0 : 0 < grid0.rank
  k0_mult1_dvd : ∀ i : grid0.Coords, 128 ∣ (k0_mult1 i).toNat
  k0_mult2_dvd : ∀ i : grid0.Coords, 128 ∣ (k0_mult2 i).toNat
  k0_off1_inb : ∀ i : grid0.Coords, ∀ a, (k0_off1 i) a + S1x128x64.size a ≤ S1x768x64.size a
  k0_off2_inb : ∀ i : grid0.Coords, ∀ a, (k0_off2 i) a + S1x128x64.size a ≤ S1x768x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x768x64.size a ≤ S1x768x64.size a
  hwx0_0 : ∀ i : grid0.Coords, EltTy.bits .f32 = 32 ∨ (Rect.block (s := S1x768x64) S1x768x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128x192.size a ≤ S1x768x768x192.size a
  hwx0_1 : ∀ i : grid0.Coords, EltTy.bits .f32 = 32 ∨ (Rect.block (s := S1x768x768x192) S1x128x128x192.size (cc0_transform_1 i) (hinb0_1 i)).WholeWords (EltTy.packing .f32)

variable [Facts₀]

abbrev win0_0 : Pipeline.Window sig grid0 :=
  Pipeline.Window.ofSpec (Memref.whole main_arg0) S1x768x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x128x192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1x768x64 : Shape := ⟨3, ![1, 768, 64]⟩
abbrev S1x768x1x64 : Shape := ⟨4, ![1, 768, 1, 64]⟩
abbrev S1x768x768x64 : Shape := ⟨4, ![1, 768, 768, 64]⟩
abbrev S1x1x768x64 : Shape := ⟨4, ![1, 1, 768, 64]⟩
abbrev S_ : Shape := ⟨0, ![]⟩
abbrev S1x768x768x192 : Shape := ⟨4, ![1, 768, 768, 192]⟩

abbrev nBuf : Space → Nat
  | .hbm => 10
  | .vmem => 0
  | .smem => 0
  | _ => 0

abbrev bufTy : (tb : Table) → Fin (tcTables nBuf tb) → BufTy
  | .hbm, ⟨0, _⟩ => ⟨S1x768x64, .f32⟩
  | .hbm, ⟨1, _⟩ => ⟨S1x768x1x64, .f32⟩
  | .hbm, ⟨2, _⟩ => ⟨S1x768x768x64, .f32⟩
  | .hbm, ⟨3, _⟩ => ⟨S1x1x768x64, .f32⟩
  | .hbm, ⟨4, _⟩ => ⟨S1x768x768x64, .f32⟩
  | .hbm, ⟨5, _⟩ => ⟨S1x768x768x64, .f32⟩
  | .hbm, ⟨6, _⟩ => ⟨S_, .f32⟩
  | .hbm, ⟨7, _⟩ => ⟨S1x768x768x64, .f32⟩
  | .hbm, ⟨8, _⟩ => ⟨S1x768x768x64, .f32⟩
  | .hbm, ⟨9, _⟩ => ⟨S1x768x768x192, .f32⟩
  | _, _ => ⟨S1x768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]

class Facts₀ : Prop where
  bcast_S1x768x64_S1x768x1x64_0_1_3 : S1x768x64.BroadcastsInDim S1x768x1x64 (![0, 1, 3] : Fin 3 → Fin S1x768x1x64.rank)
  bcast_S1x768x1x64_S1x768x768x64_0_1_2_3 : S1x768x1x64.BroadcastsInDim S1x768x768x64 (![0, 1, 2, 3] : Fin 4 → Fin S1x768x768x64.rank)
  bcast_S1x768x64_S1x1x768x64_0_2_3 : S1x768x64.BroadcastsInDim S1x1x768x64 (![0, 2, 3] : Fin 3 → Fin S1x1x768x64.rank)
  bcast_S1x1x768x64_S1x768x768x64_0_1_2_3 : S1x1x768x64.BroadcastsInDim S1x768x768x64 (![0, 1, 2, 3] : Fin 4 → Fin S1x768x768x64.rank)
  bcast_S_S1x768x768x64 : S_.BroadcastsInDim S1x768x768x64 (![] : Fin 0 → Fin S1x768x768x64.rank)
  concatenates_S1x768x768x64_S1x768x768x64_S1x768x768x64_S1x768x768x192_d3 : Shape.Concatenates [S1x768x768x64, S1x768x768x64, S1x768x768x64] S1x768x768x192 3

variable [Facts₀]

class Facts : Prop extends Facts₀ where

variable [Facts]
-- ==== Proof.Spec.lean ====
/-
  The pairwise-feature array, as one function of the input.

  The input `x` has shape [1, 768, 64]: 768 rows of 64 features.  The result has shape [1, 768, 768, 192]:
  for every ordered pair of rows (r, c) a vector of 192 features, the concatenation of

    * features   0 ..  63 : row r itself,                       x[r, k]
    * features  64 .. 127 : the mean of the two rows,           (x[r, k - 64] + x[c, k - 64]) * 1/2
    * features 128 .. 191 : row c itself,                       x[c, k - 128]

  Everything is stated over natural-number coordinates (`rowAt`, `pair`), so that the two programs' index
  arithmetic — a block offset plus a position inside the block on one side, a concatenation's prefix on the
  other — is linear arithmetic on naturals.  The constant 1/2 is kept as the word both programs print; it is
  the same word on both sides and is never evaluated.
-/
import Idealize.ShloMosaic.PureOps.Ideal
import Idealize.ShloMosaic.Lib.ValueIdx

noncomputable section

namespace Cert.Spec

open Idealize.ShloMosaic Idealize.ShloMosaic.ValueIdx

/-- The input's shape, [1, 768, 64], and the result's, [1, 768, 768, 192]. -/
abbrev SX : Shape := ⟨3, ![1, 768, 64]⟩
abbrev SO : Shape := ⟨4, ![1, 768, 768, 192]⟩

/-- The factor of the middle third: the word of 0.5 in f32, read as an extended real. -/
abbrev half : EReal := Ideal.ofBits .f32 0x3F000000#32

/-- Feature `k` of row `r` of the input, by natural-number coordinates (zero outside the array; never read there). -/
def rowAt (x : SX.Idx → EReal) (r k : Nat) : EReal :=
  if h : r < 768 ∧ k < 64 then x (ix3 (0 : Fin 1) (⟨r, h.1⟩ : Fin 768) (⟨k, h.2⟩ : Fin 64)) else 0

/-- Reading the input at an index is reading `rowAt` at the index's two moving coordinates. -/
theorem rowAt_eq (x : SX.Idx → EReal) (i : SX.Idx) (r k : Nat) (h1 : (i 1).val = r) (h2 : (i 2).val = k) :
    x i = rowAt x r k := by
  subst h1 h2
  have b1 : (i 1).val < 768 := (i 1).isLt
  have b2 : (i 2).val < 64 := (i 2).isLt
  unfold rowAt
  rw [dif_pos ⟨b1, b2⟩]
  refine congrArg x (funext fun a => ?_)
  match a with
  | ⟨0, _⟩ => exact Fin.ext (by have : (i 0).val < 1 := (i 0).isLt; show (i 0).val = 0; omega)
  | ⟨1, _⟩ => exact Fin.ext rfl
  | ⟨2, _⟩ => exact Fin.ext rfl

/-- Feature `k` (of 192) of the pair of rows (r, c). -/
def pair (x : SX.Idx → EReal) (r c k : Nat) : EReal :=
  if k < 64 then rowAt x r k
  else if k < 128 then (rowAt x r (k - 64) + rowAt x c (k - 64)) * half
  else rowAt x c (k - 128)

theorem pair_low (x : SX.Idx → EReal) (r c k : Nat) (h : k < 64) : pair x r c k = rowAt x r k := by
  unfold pair; rw [if_pos h]

theorem pair_mid (x : SX.Idx → EReal) (r c k : Nat) (h0 : 64 ≤ k) (h1 : k < 128) :
    pair x r c k = (rowAt x r (k - 64) + rowAt x c (k - 64)) * half := by
  unfold pair; rw [if_neg (by omega), if_pos h1]

theorem pair_high (x : SX.Idx → EReal) (r c k : Nat) (h : 128 ≤ k) : pair x r c k = rowAt x c (k - 128) := by
  unfold pair; rw [if_neg (by omega), if_neg (by omega)]

/-- THE RESULT: at index (0, r, c, k) feature `k` of the pair (r, c). -/
def pairwise (x : SX.Idx → EReal) : SO.Idx → EReal :=
  fun o => pair x (o 1).val (o 2).val (o 3).val

end Cert.Spec

end
-- ==== Proof.BlockValue.lean ====
/-
  What the kernel body leaves in its output block at one grid point.

  At grid point (gi, gj) the body loads two slabs of 128 rows of the resident input — rows 128·gi … of `x` for
  the pair's first member, rows 128·gj … for the second —, broadcasts the first along the block's column axis and
  the second along its row axis, and stores three lane ranges of the [1, 128, 128, 192] block: the first slab in
  lanes 0–63, the mean of the two in lanes 64–127, the second slab in lanes 128–191.  So the block at local index
  (0, p, q, k) is feature `k` of the pair of rows (128·gi + p, 128·gj + q) — the block of `Spec.pairwise` the grid
  point names.  The three stores tile the block, so their canonical contents are that one function.
-/
import proofs.«104452_j5927054868544_2_alg».proof.Proof.Gen.KernelIdeal.Value
import proofs.«104452_j5927054868544_2_alg».proof.Proof.Spec
import Idealize.ShloMosaic.Lib.Pipeline.Value
import Idealize.ShloMosaic.Lib.ValueIdx

set_option maxRecDepth 16384

noncomputable section

namespace Cert.KernelIdeal.Block

open Cert.KernelIdeal Cert.KernelIdeal.Gen Cert.Spec
open Idealize.ShloMosaic Idealize.ShloMosaic.TcCoe Idealize.ShloMosaic.ValueIdx Idealize.SL.Sem

/-! ## Where the two loads start -/

/-- A grid coordinate times 128, computed in 32-bit words and read back as a row offset, is that product. -/
theorem rows_of_coord : ∀ a : Fin 6, (Scalar.indexCast (Scalar.muli (BitVec.ofNat 32 a.val) 128#32)).toNat = 128 * a.val := by
  decide

theorem off1_rows (i : grid0.Coords) : k0_off1 i 1 = 128 * (i 0).val := rows_of_coord (i 0)
theorem off2_rows (i : grid0.Coords) : k0_off2 i 1 = 128 * (i 1).val := rows_of_coord (i 1)
theorem off1_feat (i : grid0.Coords) : k0_off1 i 2 = 0 := rfl
theorem off2_feat (i : grid0.Coords) : k0_off2 i 2 = 0 := rfl

/-! ## The three payloads at an index -/

/-- The first slab broadcast along the column axis: (0, p, q, k) reads the slab at (0, p, k). -/
theorem rowSlab_apply (v : Vec Ideal S1x128x64 .f32) (a : Fin 1) (p q : Fin 128) (k : Fin 64) :
    k0_pay1 (F := Ideal) v (ix4 a p q k) = v (ix3 (0 : Fin 1) p k) := by
  unfold k0_pay1
  refine (broadcastTo_apply _ _ (ix4 a p q k) (ix4 (0 : Fin 1) p (0 : Fin 1) k) ?_).trans ?_
  · intro b
    match b with
    | ⟨0, _⟩ => rfl
    | ⟨1, _⟩ => rfl
    | ⟨2, _⟩ => rfl
    | ⟨3, _⟩ => rfl
  rw [shapeCast_self]
  refine shapeCast_apply _ _ _ (ix3 (0 : Fin 1) p k) ?_
  rw [Shape.rowMajor_val_three, Shape.rowMajor_val_four]
  show ((0 * 128 + p.val) * 64 + k.val) = (((0 * 128 + p.val) * 1 + 0) * 64 + k.val)
  omega

/-- The second slab broadcast along the row axis: (0, p, q, k) reads the slab at (0, q, k). -/
theorem colSlab_apply (v : Vec Ideal S1x128x64 .f32) (a : Fin 1) (p q : Fin 128) (k : Fin 64) :
    k0_pay2 (F := Ideal) v (ix4 a p q k) = v (ix3 (0 : Fin 1) q k) := by
  unfold k0_pay2
  refine (broadcastTo_apply _ _ (ix4 a p q k) (ix4 (0 : Fin 1) (0 : Fin 1) q k) ?_).trans ?_
  · intro b
    match b with
    | ⟨0, _⟩ => rfl
    | ⟨1, _⟩ => rfl
    | ⟨2, _⟩ => rfl
    | ⟨3, _⟩ => rfl
  rw [shapeCast_self]
  refine shapeCast_apply _ _ _ (ix3 (0 : Fin 1) q k) ?_
  rw [Shape.rowMajor_val_three, Shape.rowMajor_val_four]
  show ((0 * 128 + q.val) * 64 + k.val) = (((0 * 1 + 0) * 128 + q.val) * 64 + k.val)
  omega

/-- The middle third: the sum of the two broadcast slabs times one half. -/
theorem mean_apply (v w : Vec Ideal S1x128x64 .f32) (a : Fin 1) (p q : Fin 128) (k : Fin 64) :
    k0_pay3 (F := Ideal) v w (ix4 a p q k) = (v (ix3 (0 : Fin 1) p k) + w (ix3 (0 : Fin 1) q k)) * half := by
  unfold k0_pay3
  show (k0_pay1 (F := Ideal) v (ix4 a p q k) + k0_pay2 (F := Ideal) w (ix4 a p q k)) * half = _
  rw [rowSlab_apply, colSlab_apply]

/-! ## The block -/

/-- A load of 128 rows of the resident input starting at row `R`: entry (0, q, k) is feature `k` of row `R + q`. -/
theorem slab_apply (x : Vec Ideal S1x768x64 .f32) (off : Fin 3 → Nat)
    (inb : ∀ a, off a + S1x128x64.size a ≤ S1x768x64.size a) (R : Nat) (h1 : off 1 = R) (h2 : off 2 = 0)
    (q : Fin 128) (k : Fin 64) :
    View.ld x (Rect.unit (s := S1x768x64) off S1x128x64.size inb) (ix3 (0 : Fin 1) q k) = rowAt x (R + q.val) k.val := by
  refine rowAt_eq x _ _ _ ?_ ?_
  · show off 1 + 1 * q.val = R + q.val
    rw [h1]; omega
  · show off 2 + 1 * k.val = k.val
    rw [h2]; omega

/-- WHAT THE BODY LEAVES at grid point `i` on the resident input `x`: at local index (0, p, q, k) feature `k` of the
    pair of rows (128·i₀ + p, 128·i₁ + q).  Each of the three stores agrees with that function on its lane range,
    and together they cover the block. -/
theorem block_apply (c : Dev nD) (i : grid0.Coords) (a1 : Memref sig .tc .vmem S1x768x64 .f32) (h1 : a1.IsWhole)
    (a2 : Memref sig .tc .vmem S1x128x128x192 .f32) (h2 : a2.IsWhole) (x : Vec Ideal S1x768x64 .f32)
    (y : S1x128x128x192.Idx) :
    out0_A_1 (F := Ideal) c i a1 h1 a2 h2 x y
      = pair x (128 * (i 0).val + (y 1).val) (128 * (i 1).val + (y 2).val) (y 3).val := by
  unfold out0_A_1
  rw [View.read_writes_eq_canon _ _ _ (cover0_A_1 c i a1 h1 a2 h2 x)]
  refine View.canon_apply_of_pieces
    (fun y : S1x128x128x192.Idx => pair x (128 * (i 0).val + (y 1).val) (128 * (i 1).val + (y 2).val) (y 3).val)
    _ ?_ y (cover0_A_1 c i a1 h1 a2 h2 x y)
  unfold kernelRun0_A
  dsimp only
  intro pc hpc
  simp only [List.mem_cons, List.not_mem_nil, or_false] at hpc
  rcases hpc with rfl | rfl | rfl
  · -- lanes 128–191: the second slab
    intro z
    obtain ⟨a, p, q, k, rfl⟩ : ∃ (a : Fin 1) (p q : Fin 128) (k : Fin 64), z = ix4 a p q k :=
      ⟨z 0, z 1, z 2, z 3, eq_ix4 z⟩
    have hk : k.val < 64 := k.isLt
    simp only [View.readAt_eq_ld, h1.read_unread]
    refine (colSlab_apply _ a p q k).trans ?_
    refine (slab_apply x _ _ (128 * (i 1).val) (off2_rows i) (off2_feat i) q k).trans ?_
    symm
    refine (pair_high x _ _ _ ?_).trans ?_
    · show 128 ≤ 128 + 1 * k.val
      omega
    exact congrArg₂ (rowAt x) (by show 128 * (i 1).val + (0 + 1 * q.val) = _; omega)
      (by show 128 + 1 * k.val - 128 = k.val; omega)
  · -- lanes 64–127: the mean
    intro z
    obtain ⟨a, p, q, k, rfl⟩ : ∃ (a : Fin 1) (p q : Fin 128) (k : Fin 64), z = ix4 a p q k :=
      ⟨z 0, z 1, z 2, z 3, eq_ix4 z⟩
    have hk : k.val < 64 := k.isLt
    simp only [View.readAt_eq_ld, h1.read_unread]
    refine (mean_apply _ _ a p q k).trans ?_
    refine (congrArg₂ (fun u v : EReal => (u + v) * half)
      (slab_apply x _ _ (128 * (i 0).val) (off1_rows i) (off1_feat i) p k)
      (slab_apply x _ _ (128 * (i 1).val) (off2_rows i) (off2_feat i) q k)).trans ?_
    symm
    refine (pair_mid x _ _ _ ?_ ?_).trans ?_
    · show 64 ≤ 64 + 1 * k.val
      omega
    · show 64 + 1 * k.val < 128
      omega
    exact congrArg₂ (fun u v : EReal => (u + v) * half)
      (congrArg₂ (rowAt x) (by show 128 * (i 0).val + (0 + 1 * p.val) = _; omega)
        (by show 64 + 1 * k.val - 64 = k.val; omega))
      (congrArg₂ (rowAt x) (by show 128 * (i 1).val + (0 + 1 * q.val) = _; omega)
        (by show 64 + 1 * k.val - 64 = k.val; omega))
  · -- lanes 0–63: the first slab
    intro z
    obtain ⟨a, p, q, k, rfl⟩ : ∃ (a : Fin 1) (p q : Fin 128) (k : Fin 64), z = ix4 a p q k :=
      ⟨z 0, z 1, z 2, z 3, eq_ix4 z⟩
    have hk : k.val < 64 := k.isLt
    simp only [View.readAt_eq_ld, h1.read_unread]
    refine (rowSlab_apply _ a p q k).trans ?_
    refine (slab_apply x _ _ (128 * (i 0).val) (off1_rows i) (off1_feat i) p k).trans ?_
    symm
    refine (pair_low x _ _ _ ?_).trans ?_
    · show 0 + 1 * k.val < 64
      omega
    exact congrArg₂ (rowAt x) (by show 128 * (i 0).val + (0 + 1 * p.val) = _; omega)
      (by show 0 + 1 * k.val = k.val; omega)

end Cert.KernelIdeal.Block

end
-- ==== Proof.KernelValue.lean ====
/-
  From blocks to the array: the kernel's result array is `Spec.pairwise` of its argument.

  The grid is 6 × 6.  The input window is the whole [1, 768, 64] array at every point (its block index is zero on
  every axis), so the body's resident input is the argument itself.  The output window's block at grid point
  (gi, gj) is rows 128·gi … and columns 128·gj … of the [1, 768, 768, 192] result (block index (0, gi, gj, 0) of
  blocks of extent (1, 128, 128, 192)), so array index (0, r, c, k) under that block is local index
  (0, r − 128·gi, c − 128·gj, k), where the body left feature `k` of the pair of rows (r, c): the block of
  `pairwise`.  Every point writes its block back, and the 36 blocks cover the array: index (0, r, c, k) lies in the
  block of point (r / 128, c / 128).
-/
import proofs.«104452_j5927054868544_2_alg».proof.Proof.Gen.KernelIdeal.Value
import proofs.«104452_j5927054868544_2_alg».proof.Proof.BlockValue
import Idealize.ShloMosaic.Lib.Pipeline.Value

set_option maxRecDepth 16384

noncomputable section

namespace Cert.KernelIdeal.Whole

open Cert.KernelIdeal Cert.KernelIdeal.Gen Cert.KernelIdeal.Value Cert.Spec
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The printed index maps, decided over the 36 grid points: the input's block index is zero on every axis; the
    output's is (0, gi, gj, 0) at point (gi, gj). -/
theorem idx_facts : ∀ t : Fin cfg0.N,
    win0_0.index t (0 : Fin 3) = 0 ∧ win0_0.index t (1 : Fin 3) = 0 ∧ win0_0.index t (2 : Fin 3) = 0
    ∧ win0_1.index t (0 : Fin 4) = 0 ∧ win0_1.index t (1 : Fin 4) = (grid0.coords t 0).val
    ∧ win0_1.index t (2 : Fin 4) = (grid0.coords t 1).val ∧ win0_1.index t (3 : Fin 4) = 0 :=
  (by decide +kernel : ∀ t : Fin grid0.N, _)

/-- Every pair of block coordinates is some grid point's. -/
theorem idx_onto : ∀ (q1 q2 : Fin 6), ∃ t : Fin cfg0.N, win0_1.index t = ![0, q1.val, q2.val, 0] :=
  (by decide +kernel : ∀ (q1 q2 : Fin 6), ∃ t : Fin grid0.N, win0_1.index t = ![0, q1.val, q2.val, 0])

/-- The resident input at any point is the argument array: its one block is the whole array. -/
theorem resident_eq (c : Dev nD) (t : Fin cfg0.N) (r k : Nat) :
    rowAt (iblk m c 0 t) r k = rowAt (V m c main_arg0) r k := by
  obtain ⟨e0, e1, e2, -⟩ := idx_facts t
  have e : (iblk m c 0 t : S1x768x64.Idx → EReal) = V m c main_arg0 := by
    funext y
    show V m c main_arg0 (((cfg0.win 0).blk t).view.emb y) = V m c main_arg0 y
    refine congrArg (V m c main_arg0) (funext fun a => Fin.ext ?_)
    match a with
    | ⟨0, _⟩ => show win0_0.index t (0 : Fin 3) * 1 + 1 * (y 0).val = (y 0).val; omega
    | ⟨1, _⟩ => show win0_0.index t (1 : Fin 3) * 768 + 1 * (y 1).val = (y 1).val; omega
    | ⟨2, _⟩ => show win0_0.index t (2 : Fin 3) * 64 + 1 * (y 2).val = (y 2).val; omega
  rw [e]

/-- WHAT POINT `t` WRITES BACK is block `t` of the pairwise-feature array of the argument. -/
theorem flushed_eq (c : Dev nD) (t : Fin cfg0.N) :
    (dats m 0 c).flushed 1 t = ((cfg0.win 1).blk t).view.read (Elt Ideal) (pairwise (V m c main_arg0)) := by
  rw [flushed1_A]
  obtain ⟨-, -, -, f0, f1, f2, f3⟩ := idx_facts t
  funext j
  show out0_A_1 (F := Ideal) c (grid0.coords t) (ms0_0 t) (hs0_0 t) (ms0_1 t) (hs0_1 t) (iblk m c 0 t) j
    = pair (V m c main_arg0) (((cfg0.win 1).blk t).view.emb j 1).val (((cfg0.win 1).blk t).view.emb j 2).val
        (((cfg0.win 1).blk t).view.emb j 3).val
  refine (Block.block_apply c (grid0.coords t) (ms0_0 t) (hs0_0 t) (ms0_1 t) (hs0_1 t) (iblk m c 0 t) j).trans ?_
  have E1 : (((cfg0.win 1).blk t).view.emb j 1).val = 128 * (grid0.coords t 0).val + (j 1).val := by
    show win0_1.index t (1 : Fin 4) * 128 + 1 * (j 1).val = _
    omega
  have E2 : (((cfg0.win 1).blk t).view.emb j 2).val = 128 * (grid0.coords t 1).val + (j 2).val := by
    show win0_1.index t (2 : Fin 4) * 128 + 1 * (j 2).val = _
    omega
  have E3 : (((cfg0.win 1).blk t).view.emb j 3).val = (j 3).val := by
    show win0_1.index t (3 : Fin 4) * 192 + 1 * (j 3).val = _
    omega
  rw [E1, E2, E3]
  unfold pair
  simp only [resident_eq m c t]

/-- An index of the result is in point `t`'s block iff each coordinate is in the block's range on its axis. -/
theorem mem_blk (t : Fin cfg0.N) (i : S1x768x768x192.Idx) :
    i ∈ ((cfg0.win 1).blk t).view.set ↔ ∀ a : Fin 4, win0_1.index t a * S1x128x128x192.size a ≤ (i a).val
      ∧ (i a).val < win0_1.index t a * S1x128x128x192.size a + S1x128x128x192.size a := by
  show i ∈ ((View.whole main_v0).slice (win0_1.rect t)).set ↔ _
  rw [View.set_slice_whole, Rect.mem_set_unit]
  exact Iff.rfl

/-- The blocks cover the result: (0, r, c, k) is in the block of point (r / 128, c / 128). -/
theorem cover (i : S1x768x768x192.Idx) :
    ∃ t : Fin cfg0.N, (cfg0.win 1).flush t = true ∧ i ∈ ((cfg0.win 1).blk t).view.set := by
  have h0 : (i 0).val < 1 := (i 0).isLt
  have h1 : (i 1).val < 768 := (i 1).isLt
  have h2 : (i 2).val < 768 := (i 2).isLt
  have h3 : (i 3).val < 192 := (i 3).isLt
  obtain ⟨t, ht⟩ := idx_onto ⟨(i 1).val / 128, by omega⟩ ⟨(i 2).val / 128, by omega⟩
  have q0 : win0_1.index t (0 : Fin 4) = 0 := congrFun ht 0
  have q1 : win0_1.index t (1 : Fin 4) = (i 1).val / 128 := congrFun ht 1
  have q2 : win0_1.index t (2 : Fin 4) = (i 2).val / 128 := congrFun ht 2
  have q3 : win0_1.index t (3 : Fin 4) = 0 := congrFun ht 3
  refine ⟨t, flush0_1 t, ?_⟩
  rw [mem_blk]
  intro a
  match a with
  | ⟨0, _⟩ =>
    show win0_1.index t (0 : Fin 4) * 1 ≤ (i 0).val ∧ (i 0).val < win0_1.index t (0 : Fin 4) * 1 + 1
    omega
  | ⟨1, _⟩ =>
    show win0_1.index t (1 : Fin 4) * 128 ≤ (i 1).val ∧ (i 1).val < win0_1.index t (1 : Fin 4) * 128 + 128
    omega
  | ⟨2, _⟩ =>
    show win0_1.index t (2 : Fin 4) * 128 ≤ (i 2).val ∧ (i 2).val < win0_1.index t (2 : Fin 4) * 128 + 128
    omega
  | ⟨3, _⟩ =>
    show win0_1.index t (3 : Fin 4) * 192 ≤ (i 3).val ∧ (i 3).val < win0_1.index t (3 : Fin 4) * 192 + 192
    omega

/-- THE ARRAY after the run: the pairwise-feature array of the argument. -/
theorem final (c : Dev nD) : (dats m 0 c).arrAt 1 cfg0.N = pairwise (V m c main_arg0) :=
  (dats m 0 c).arrAt_eq_of_cover 1 (pairwise (V m c main_arg0)) (fun t _ => flushed_eq m c t) cover

/-- The kernel's run, read: the result array at the pairwise-feature array of the argument, the argument unchanged. -/
theorem run : θ_run defs (onTc (τ := τ) (main (F := Ideal))) ⟨m, fun _ => 0, ρ⟩ fun r => ∀ c : Dev nD,
      r.2.mem ((c : Thread nD τ).loc main_v0) = pairwise (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Whole

end
-- ==== Proof.RefValue.lean ====
/-
  The reference computes `Spec.pairwise`.

  The reference broadcasts the input twice to [1, 768, 768, 64] — once with the row index moving along axis 1
  (entry (0, r, c, k) is x[r, k]), once along axis 2 (entry (0, r, c, k) is x[c, k]) —, forms the mean of the two
  as (first + second) · 1/2, and concatenates first, mean, second along the last axis.  A concatenation read at an
  index is the piece whose span holds the last coordinate, read at that coordinate less the spans before it: lanes
  0–63 fall in the first piece, 64–127 in the mean (at k − 64), 128–191 in the second (at k − 128).
-/
import proofs.«104452_j5927054868544_2_alg».proof.Proof.Gen.ReferenceIdeal.Read
import proofs.«104452_j5927054868544_2_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Cert.Spec
open Idealize.ShloMosaic Idealize.ShloMosaic.ValueIdx

/-- The broadcast along the column axis: entry (0, r, c, k) is feature `k` of row `r`. -/
theorem first_apply (x : S1x768x64.Idx → EReal) (i : S1x768x768x64.Idx) :
    val_main_v1 (F := Ideal) x i = rowAt x (i 1).val (i 3).val := by
  rw [val_main_v1_apply, val_main_v0_apply]
  exact rowAt_eq x _ _ _ rfl rfl

/-- The broadcast along the row axis: entry (0, r, c, k) is feature `k` of row `c`. -/
theorem second_apply (x : S1x768x64.Idx → EReal) (i : S1x768x768x64.Idx) :
    val_main_v3 (F := Ideal) x i = rowAt x (i 2).val (i 3).val := by
  rw [val_main_v3_apply, val_main_v2_apply]
  exact rowAt_eq x _ _ _ rfl rfl

/-- The mean of the two broadcasts: their sum times one half. -/
theorem mean_apply (x : S1x768x64.Idx → EReal) (i : S1x768x768x64.Idx) :
    val_main_v6 (F := Ideal) x i = (rowAt x (i 1).val (i 3).val + rowAt x (i 2).val (i 3).val) * half := by
  rw [val_main_v6_apply, val_main_v4_apply, val_main_v5_apply, val_main_cst_apply, first_apply, second_apply]
  rfl

/-- The three pieces the reference concatenates along the feature axis: first, mean, second. -/
abbrev pieces (x : S1x768x64.Idx → EReal) : List ((s : Shape) × (s.Idx → EReal)) :=
  [⟨S1x768x768x64, val_main_v1 (F := Ideal) x⟩, ⟨S1x768x768x64, val_main_v6 (F := Ideal) x⟩,
    ⟨S1x768x768x64, val_main_v3 (F := Ideal) x⟩]

/-- THE REFERENCE'S RESULT is the pairwise-feature array of its argument. -/
theorem reference_eq (x : S1x768x64.Idx → EReal) : val_main_v7 (F := Ideal) x = pairwise x := by
  funext o
  unfold val_main_v7 pairwise
  have h3 : (o 3).val < 192 := (o 3).isLt
  by_cases hlo : (o 3).val < 64
  · rw [pair_low _ _ _ _ hlo]
    refine (concatenate_apply_piece (t := S1x768x768x192) (3 : Fin 4) (pieces x)
      concatenates_S1x768x768x64_S1x768x768x64_S1x768x768x64_S1x768x768x192_d3 o 0 (Nat.succ_pos _) S1x768x768x64 (val_main_v1 (F := Ideal) x) rfl rfl 0 rfl
      (ix4 (o 0) (o 1) (o 2) (⟨(o 3).val, hlo⟩ : Fin 64)) ?_ ?_).trans ?_
    · intro b hb
      match b with
      | ⟨0, _⟩ => rfl
      | ⟨1, _⟩ => rfl
      | ⟨2, _⟩ => rfl
      | ⟨3, _⟩ => exact absurd (Fin.ext rfl) hb
    · show 0 + (o 3).val = (o 3).val
      omega
    · exact first_apply x _
  · by_cases hmid : (o 3).val < 128
    · rw [pair_mid _ _ _ _ (by omega) hmid]
      refine (concatenate_apply_piece (t := S1x768x768x192) (3 : Fin 4) (pieces x)
      concatenates_S1x768x768x64_S1x768x768x64_S1x768x768x64_S1x768x768x192_d3 o 1 (Nat.succ_lt_succ (Nat.succ_pos _)) S1x768x768x64 (val_main_v6 (F := Ideal) x) rfl rfl 64 rfl
        (ix4 (o 0) (o 1) (o 2) (⟨(o 3).val - 64, by omega⟩ : Fin 64)) ?_ ?_).trans ?_
      · intro b hb
        match b with
        | ⟨0, _⟩ => rfl
        | ⟨1, _⟩ => rfl
        | ⟨2, _⟩ => rfl
        | ⟨3, _⟩ => exact absurd (Fin.ext rfl) hb
      · show 64 + ((o 3).val - 64) = (o 3).val
        omega
      · exact mean_apply x _
    · rw [pair_high _ _ _ _ (by omega)]
      refine (concatenate_apply_piece (t := S1x768x768x192) (3 : Fin 4) (pieces x)
      concatenates_S1x768x768x64_S1x768x768x64_S1x768x768x64_S1x768x768x192_d3 o 2 (Nat.succ_lt_succ (Nat.succ_lt_succ (Nat.succ_pos _))) S1x768x768x64 (val_main_v3 (F := Ideal) x) rfl rfl 128 rfl
        (ix4 (o 0) (o 1) (o 2) (⟨(o 3).val - 128, by omega⟩ : Fin 64)) ?_ ?_).trans ?_
      · intro b hb
        match b with
        | ⟨0, _⟩ => rfl
        | ⟨1, _⟩ => rfl
        | ⟨2, _⟩ => rfl
        | ⟨3, _⟩ => exact absurd (Fin.ext rfl) hb
      · show 128 + ((o 3).val - 128) = (o 3).val
        omega
      · exact second_apply x _

end Cert.ReferenceIdeal.RefValue

end
-- ==== Proof.lean ====
/-
  The pairwise-feature kernel against its jnp reference.

  For an input `x` of 768 rows of 64 features both programs produce, for every ordered pair of rows (r, c), the 192
  features  x[r] ‖ (x[r] + x[c]) · 1/2 ‖ x[c]  (`Spec.pairwise`).  The kernel tiles the 768 × 768 pairs into a 6 × 6
  grid of 128 × 128 blocks, keeps `x` resident, and at each grid point stores the three lane ranges of its block
  (`BlockValue`); the blocks cover the result, which is therefore the whole array function (`KernelValue`).  The
  reference broadcasts `x` along each of the two pair axes, forms the same mean with the same constant word, and
  concatenates (`RefValue`).  The two sides are the same expression entry by entry — no law of the extended reals is
  used beyond that, and the inputs' finiteness is never needed.  The ideal pass rewrote nothing in the kernel, so the
  idealization claim is trivial.
-/
import proofs.«104452_j5927054868544_2_alg».proof.Defs
import proofs.«104452_j5927054868544_2_alg».proof.Proof.Gen.Kernel
import proofs.«104452_j5927054868544_2_alg».proof.Proof.Gen.Kernel.Frame
import proofs.«104452_j5927054868544_2_alg».proof.Proof.Gen.KernelIdeal
import proofs.«104452_j5927054868544_2_alg».proof.Proof.Gen.KernelIdeal.Frame
import proofs.«104452_j5927054868544_2_alg».proof.Proof.Gen.KernelIdeal.Value
import proofs.«104452_j5927054868544_2_alg».proof.Proof.Gen.ReferenceIdeal
import proofs.«104452_j5927054868544_2_alg».proof.Proof.Gen.ReferenceIdeal.Run
import proofs.«104452_j5927054868544_2_alg».proof.Proof.Gen.ReferenceIdeal.Read
import proofs.«104452_j5927054868544_2_alg».proof.Proof.Gen.Pre_finite_inputs
import proofs.«104452_j5927054868544_2_alg».proof.Proof.Spec
import proofs.«104452_j5927054868544_2_alg».proof.Proof.BlockValue
import proofs.«104452_j5927054868544_2_alg».proof.Proof.KernelValue
import proofs.«104452_j5927054868544_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its argument unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is nine host operations in a row: it runs, and its argument is unchanged. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the pairwise-feature array of the (shared) argument. -/
theorem algebraic : Cert.algebraic_KernelIdeal_ReferenceIdeal := by
  intro m ρ m' ρ' _ hagree
  refine ⟨fun c => Cert.Spec.pairwise (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, Cert.ReferenceIdeal.RefValue.reference_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
